-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 36
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S128x128, .f32⟩
  | .hbm, ⟨33, _⟩ => ⟨S128x128, .f32⟩
  | .hbm, ⟨34, _⟩ => ⟨S1x128, .f32⟩
  | .hbm, ⟨35, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 39
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x128, .f32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S50000x128, .f32⟩
  | .hbm, ⟨33, _⟩ => ⟨S128x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The layer both programs compute, as ONE function of arrays, index by index, on the extended reals.

  For node `r` and output column `q`:

      out r q = (∑ k, feat r k · W_self q k  +  b q)  +  ∑ k, (summed r k / mx r) · W_neigh q k

  where `summed r` is the sum of the feature rows of `r`'s incoming neighbours and `mx r = max (deg r) 1`.
  The reference divides each summed row by `mx r`; the kernel is handed the column `inv r = 1 / mx r`,
  the two weight matrices already transposed and the bias as a one-row matrix, and multiplies. The two
  agree because, on the extended reals, a quotient by a NONZERO divisor is the product with its
  reciprocal — at the infinities too, since both sides are `x · y⁻¹` — and `max d 1` is at least one,
  hence never zero. Nothing here needs an entry to be finite.
-/
import Idealize.ShloMosaic.PureOps.Ideal
import Idealize.ShloMosaic.Lib.ValueIdx

noncomputable section

namespace Cert.SageMean

open Idealize.ShloMosaic Idealize.ShloMosaic.ValueIdx

/-- Node-by-feature arrays, weight matrices, per-node columns, and vectors, at the layer's literal sizes. -/
abbrev NodeMat : Type := (⟨2, ![50000, 128]⟩ : Shape).Idx → EReal
abbrev WMat : Type := (⟨2, ![128, 128]⟩ : Shape).Idx → EReal
abbrev NodeVec : Type := (⟨1, ![50000]⟩ : Shape).Idx → EReal
abbrev NodeCol : Type := (⟨2, ![50000, 1]⟩ : Shape).Idx → EReal
abbrev FeatVec : Type := (⟨1, ![128]⟩ : Shape).Idx → EReal
abbrev FeatRow : Type := (⟨2, ![1, 128]⟩ : Shape).Idx → EReal

/-- The layer as the reference spells it: the self term plus bias, plus the neighbour mean (each summed
    entry DIVIDED by the node's clamped degree) through the neighbour weights. Both weight matrices are
    read transposed: output column `q` pairs with row `q` of the matrix. -/
def layer (feat summed : NodeMat) (mx : NodeVec) (wn ws : WMat) (b : FeatVec) : NodeMat := fun i =>
  ((∑ k : Fin 128, feat (ix2 (i 0) k) * ws (ix2 (i 1) k)) + b (ix1 (i 1)))
    + ∑ k : Fin 128, Ideal.div (summed (ix2 (i 0) k)) (mx (ix1 (i 0))) * wn (ix2 (i 1) k)

/-- The layer as the kernel spells it, over the arrays its windows stage: the reciprocal column `inv`
    multiplies the summed entry, the weight matrices arrive transposed (`wnT`, `wsT`: row `k`, column `q`)
    and the bias as a single row. -/
def fused (feat summed : NodeMat) (inv : NodeCol) (wnT wsT : WMat) (b2 : FeatRow) : NodeMat := fun i =>
  ((∑ k : Fin 128, feat (ix2 (i 0) k) * wsT (ix2 k (i 1))) + b2 (ix2 0 (i 1)))
    + ∑ k : Fin 128, (summed (ix2 (i 0) k) * inv (ix2 (i 0) 0)) * wnT (ix2 k (i 1))

/-- The kernel's spelling at explicit coordinates: row `r`, column `q`. -/
theorem fused_at (feat summed : NodeMat) (inv : NodeCol) (wnT wsT : WMat) (b2 : FeatRow) (r : Fin 50000) (q : Fin 128) :
    fused feat summed inv wnT wsT b2 (ix2 r q)
      = ((∑ k : Fin 128, feat (ix2 r k) * wsT (ix2 k q)) + b2 (ix2 0 q))
        + ∑ k : Fin 128, (summed (ix2 r k) * inv (ix2 r 0)) * wnT (ix2 k q) := rfl

/-- A quotient by a nonzero extended real is the product with the reciprocal of that divisor: both are
    `x · y⁻¹`, whatever `x` is (an infinity included). At `y = 0` the two would differ (`0 / 0` against `0 · ⊤`). -/
theorem div_eq_mul_one_div {y : EReal} (hy : y ≠ 0) (x : EReal) : Ideal.div x y = x * Ideal.div 1 y := by
  unfold Ideal.div
  rw [if_neg hy, if_neg hy, one_mul]

/-- A degree clamped below by one is not zero. -/
theorem max_one_ne_zero (d : EReal) : max d 1 ≠ 0 :=
  (lt_of_lt_of_le zero_lt_one (le_max_right d 1)).ne'

/-- The kernel's spelling is the reference's, once its staged arrays are what the host prepared: the
    reciprocal column of a nowhere-zero `mx`, the transposes of the weights, the bias as a row. -/
theorem fused_eq_layer (feat summed : NodeMat) (mx : NodeVec) (wn ws : WMat) (b : FeatVec)
    (inv : NodeCol) (wnT wsT : WMat) (b2 : FeatRow)
    (hmx : ∀ r : Fin 50000, mx (ix1 r) ≠ 0)
    (hinv : ∀ r : Fin 50000, inv (ix2 r 0) = Ideal.div 1 (mx (ix1 r)))
    (hwn : ∀ (k q : Fin 128), wnT (ix2 k q) = wn (ix2 q k))
    (hws : ∀ (k q : Fin 128), wsT (ix2 k q) = ws (ix2 q k))
    (hb : ∀ q : Fin 128, b2 (ix2 0 q) = b (ix1 q)) :
    fused feat summed inv wnT wsT b2 = layer feat summed mx wn ws b := by
  funext i
  unfold fused layer
  rw [hb (i 1), hinv (i 0)]
  congr 1
  · congr 1
    exact Finset.sum_congr rfl fun k _ => by rw [hws k (i 1)]
  · exact Finset.sum_congr rfl fun k _ => by rw [hwn k (i 1), ← div_eq_mul_one_div (hmx (i 0))]

end Cert.SageMean

end
-- ==== Proof.RefIsSpec.lean ====
/-
  The reference program's result is the layer of Spec.lean, index by index.

  Reading the reference one operation at a time: its last stage adds the neighbour term to the self term;
  the self term is the product of the features with the TRANSPOSE of the self weights plus the bias
  broadcast along the nodes; the neighbour term is the product, with the transpose of the neighbour
  weights, of the summed neighbour features each divided by the node's clamped degree, that degree
  broadcast along the feature axis. The summed features and the clamped degrees are kept as the
  reference's own stages (a gather followed by a scatter-add, and a scatter-add of ones clamped below by
  one): what they hold is not opened, only passed on.
-/
import proofs.«166073_j56556129354467_2_alg».proof.Proof.Gen.ReferenceIdeal.Read
import proofs.«166073_j56556129354467_2_alg».proof.Proof.Spec

noncomputable section

namespace Cert.SageMean

open Idealize.ShloMosaic Idealize.ShloMosaic.ValueIdx
open Cert.ReferenceIdeal Cert.ReferenceIdeal.Read

/-- The reference's result stage is `layer` of the features, its summed-neighbour stage, its clamped-degree
    stage, the two weight matrices and the bias. -/
theorem reference_is_layer
    (x0 : (⟨S50000x128, .f32⟩ : BufTy).Contents (Elt Ideal)) (x1 x2 : (⟨S800000, .i32⟩ : BufTy).Contents (Elt Ideal))
    (x3 x4 : (⟨S128x128, .f32⟩ : BufTy).Contents (Elt Ideal)) (x5 : (⟨S128, .f32⟩ : BufTy).Contents (Elt Ideal)) :
    val_main_v26 (F := Ideal) x0 x1 x2 x3 x4 x5
      = layer x0 (val_main_v9 (F := Ideal) x0 x1 x2) (val_main_v15 (F := Ideal) x2) x3 x4 x5 := by
  funext i
  -- where each operand is read, in coordinates: row `i 0`, column `i 1`, contracted position `k`
  have e_feat : ∀ k : Fin 128, lidx_main_v22 i k = ix2 (n0 := 50000) (n1 := 128) (i 0) k := fun k =>
    funext fun a => Fin.ext (by match a with | ⟨0, _⟩ => rfl | ⟨1, _⟩ => rfl)
  have e_ws : ∀ k : Fin 128, idx_main_v21 (ridx_main_v22 i k) = ix2 (n0 := 128) (n1 := 128) (i 1) k := fun k =>
    funext fun a => Fin.ext (by match a with | ⟨0, _⟩ => rfl | ⟨1, _⟩ => rfl)
  have e_b : idx_main_v23 (idx_main_v24 i) = ix1 (n := 128) (i 1) :=
    funext fun a => Fin.ext (by match a with | ⟨0, _⟩ => rfl)
  have e_sum : ∀ k : Fin 128, lidx_main_v20 i k = ix2 (n0 := 50000) (n1 := 128) (i 0) k := fun k =>
    funext fun a => Fin.ext (by match a with | ⟨0, _⟩ => rfl | ⟨1, _⟩ => rfl)
  have e_mx : ∀ k : Fin 128, idx_main_v16 (idx_main_v17 (lidx_main_v20 i k)) = ix1 (n := 50000) (i 0) := fun k =>
    funext fun a => Fin.ext (by match a with | ⟨0, _⟩ => rfl)
  have e_wn : ∀ k : Fin 128, idx_main_v19 (ridx_main_v20 i k) = ix2 (n0 := 128) (n1 := 128) (i 1) k := fun k =>
    funext fun a => Fin.ext (by match a with | ⟨0, _⟩ => rfl | ⟨1, _⟩ => rfl)
  rw [val_main_v26_apply, val_main_v25_apply, val_main_v22_apply, val_main_v24_apply, val_main_v23_apply,
    val_main_v20_apply, e_b, Ideal.addf_def, Ideal.addf_def]
  -- the self term's sum, summand by summand
  have h_self : ∑ k : Fin 128, x0 (lidx_main_v22 i k) * val_main_v21 (F := Ideal) x4 (ridx_main_v22 i k)
      = ∑ k : Fin 128, x0 (ix2 (n0 := 50000) (n1 := 128) (i 0) k) * x4 (ix2 (n0 := 128) (n1 := 128) (i 1) k) :=
    Finset.sum_congr rfl fun k _ => by rw [val_main_v21_apply, e_ws k, e_feat k]
  -- the neighbour term's sum, summand by summand
  have h_neigh : ∑ k : Fin 128, val_main_v18 (F := Ideal) x0 x1 x2 (lidx_main_v20 i k) * val_main_v19 (F := Ideal) x3 (ridx_main_v20 i k)
      = ∑ k : Fin 128, Ideal.div (val_main_v9 (F := Ideal) x0 x1 x2 (ix2 (n0 := 50000) (n1 := 128) (i 0) k))
          (val_main_v15 (F := Ideal) x2 (ix1 (n := 50000) (i 0))) * x3 (ix2 (n0 := 128) (n1 := 128) (i 1) k) :=
    Finset.sum_congr rfl fun k _ => by
      rw [val_main_v18_apply, val_main_v17_apply, val_main_v16_apply, val_main_v19_apply, e_mx k, e_wn k, e_sum k,
        Ideal.hostDivf_def]
  rw [h_self, h_neigh]
  unfold layer
  rfl

end Cert.SageMean

end
-- ==== Proof.Payload.lean ====
/-
  The kernel body's one stored value, read at a row `p` of the block and an output column `q`.

  The body loads a block of 5000 feature rows, the matching block of summed neighbour rows and of the
  reciprocal column, the two transposed weight matrices and the bias row, and stores

      (feat_blk · wsT + bias) + ((summed_blk ∘ inv_blk) · wnT)

  where `∘` scales row `p` of the summed block by the `p`-th reciprocal and `·` is a matrix product into a
  zero accumulator. The narrowing of every matrix operand to a shorter float format is the identity on
  the extended reals, so at `(p, q)` each product is the plain sum over the 128 contracted positions.
-/
import proofs.«166073_j56556129354467_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.SageMean

open Idealize.ShloMosaic Idealize.ShloMosaic.ValueIdx
open Cert.KernelIdeal Cert.KernelIdeal.Gen

/-- A one-column array broadcast along a second axis reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the block's matrix product is read at the output's row and the contracted position. -/
theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_contr (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
/-- The right operand is read at the contracted position and the output's column. -/
theorem rhs_contr (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block's matrix product into the zero accumulator, at `(p, q)`: the sum over the contracted position `k`
    of the left operand at `(p, k)` times the right at `(k, q)`. -/
theorem block_matmul_at {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The body's stored value at block row `p` and column `q`, over the six loaded blocks. -/
theorem payload_at (v0 v2 : Vec Ideal S5000x128 .f32) (v4 : Vec Ideal S5000x1 .f32) (v9 v12 : Vec Ideal S128x128 .f32)
    (v17 : Vec Ideal S1x128 .f32) (p : Fin 5000) (q : Fin 128) :
    k0_pay1 (F := Ideal) v0 v2 v4 v9 v12 v17 (ix2 p q)
      = ((∑ k : Fin 128, v0 (ix2 p k) * v12 (ix2 k q)) + v17 (ix2 (0 : Fin 1) q))
        + ∑ k : Fin 128, (v2 (ix2 p k) * v4 (ix2 p (0 : Fin 1))) * v9 (ix2 k q) := by
  unfold k0_pay1
  -- the body's shape casts are between equal shapes
  simp only [shapeCast_self]
  rw [addf_apply, addf_apply, block_matmul_at, block_matmul_at, broadcastTo_1b_ab_apply]
  refine congrArg₂ (· + ·) (congrArg₂ (· + ·) (Finset.sum_congr rfl fun k _ => ?_) rfl)
    (Finset.sum_congr rfl fun k _ => ?_)
  · rw [truncf_apply, truncf_apply]
  · rw [truncf_apply, truncf_apply, mulf_apply, broadcastTo_a1_ab_apply]

end Cert.SageMean

end
-- ==== Proof.HostSide.lean ====
/-
  What the kernel's windows stage, as the host operations before the launch left it.

  Before the launch the program computes, from the argument arrays: the summed neighbour features and
  the clamped degree `max deg 1` — by exactly the operations the reference uses, so they are named here
  as the reference's own stages and never opened —; the reciprocal column `1 / max deg 1`, reshaped from a
  vector of 50000 entries to a 50000 × 1 column; the transposes of the two weight matrices; and the bias
  reshaped to a single row. Read at an index: the column at `(r, 0)` is `1 / mx r`, a transpose at `(k, q)` is
  the matrix at `(q, k)`, the bias row at `(0, q)` is the bias at `q`. With the clamped degree never zero,
  the kernel's spelling of the layer over these staged arrays is the reference's spelling over the arguments.
-/
import proofs.«166073_j56556129354467_2_alg».proof.Proof.Gen.KernelIdeal.Frame
import proofs.«166073_j56556129354467_2_alg».proof.Proof.Gen.ReferenceIdeal.Read
import proofs.«166073_j56556129354467_2_alg».proof.Proof.Spec
import Idealize.ShloMosaic.Lib.StableHlo.Run
import Idealize.ShloMosaic.Lib.ValueLayout
import Idealize.ShloMosaic.Lib.IdealHost
import Idealize.ShloMosaic.PureOps.Ideal.Laws

noncomputable section

namespace Cert.SageMean

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (c : Dev nD)

/-- The summed neighbour features the region finds are the reference's own summed-neighbour stage of the
    same arguments (the same gather and scatter-add, operation for operation). -/
theorem found_summed : (V m c main_v9 : S50000x128.Idx → EReal)
    = Cert.ReferenceIdeal.Read.val_main_v9 (F := Ideal) (m ((c.tc : Thread nD τ).loc main_arg0))
        (m ((c.tc : Thread nD τ).loc main_arg1)) (m ((c.tc : Thread nD τ).loc main_arg2)) := by
  dsimp only [Gen.V, Gen.hostOps0]
  after_results
  rfl

/-- The reciprocal column the region finds: the all-ones vector divided by the clamped degree, as a column. -/
theorem found_inv : (V m c main_v18 : S50000x1.Idx → EReal)
    = shapeCast S50000x1 (Host.divf (F := Ideal) (φ := .f32) (Cert.ReferenceIdeal.Read.val_main_v14 (F := Ideal))
        (Cert.ReferenceIdeal.Read.val_main_v15 (F := Ideal) (m ((c.tc : Thread nD τ).loc main_arg2)))) shapeCasts_S50000_S50000x1 := by
  dsimp only [Gen.V, Gen.hostOps0]
  after_results
  rfl

/-- The neighbour weights the region finds are the argument's transpose. -/
theorem found_wnT : (V m c main_v19 : S128x128.Idx → EReal)
    = transpose S128x128 [1, 0] (m ((c.tc : Thread nD τ).loc main_arg3)) transposes_S128x128_S128x128_1_0 := by
  dsimp only [Gen.V, Gen.hostOps0]
  after_results

/-- The self weights the region finds are the argument's transpose. -/
theorem found_wsT : (V m c main_v20 : S128x128.Idx → EReal)
    = transpose S128x128 [1, 0] (m ((c.tc : Thread nD τ).loc main_arg4)) transposes_S128x128_S128x128_1_0 := by
  dsimp only [Gen.V, Gen.hostOps0]
  after_results

/-- The bias the region finds is the argument as a single row. -/
theorem found_bias : (V m c main_v21 : S1x128.Idx → EReal)
    = shapeCast S1x128 (m ((c.tc : Thread nD τ).loc main_arg5)) shapeCasts_S128_S1x128 := by
  dsimp only [Gen.V, Gen.hostOps0]
  after_results
  rfl

/-- A host quotient of two arrays, read at an index, is the quotient of the entries. -/
theorem hostDivf_at {s : Shape} (a b : FVec Ideal s .f32) (i : s.Idx) :
    Host.divf (F := Ideal) a b i = Ideal.div (a i) (b i) := rfl

/-- The clamped degree is the maximum of a count and one, so it is never zero. -/
theorem clamped_ne_zero (x2 : (⟨Cert.ReferenceIdeal.S800000, .i32⟩ : BufTy).Contents (Elt Ideal)) (r : Fin 50000) :
    Cert.ReferenceIdeal.Read.val_main_v15 (F := Ideal) x2 (ix1 r) ≠ 0 := by
  rw [Cert.ReferenceIdeal.Read.val_main_v15_apply, Cert.ReferenceIdeal.Read.val_main_v14_apply,
    Cert.ReferenceIdeal.Read.val_main_cst_3_apply, Ideal.maximumf_def, Ideal.ofBits_def, Ideal.ofBits_one_f32]
  exact max_one_ne_zero _

/-- The reciprocal column at row `r` is one over the clamped degree of node `r`. -/
theorem inv_at (r : Fin 50000) : (V m c main_v18 : S50000x1.Idx → EReal) (ix2 r (0 : Fin 1))
    = Ideal.div 1 (Cert.ReferenceIdeal.Read.val_main_v15 (F := Ideal) (m ((c.tc : Thread nD τ).loc main_arg2)) (ix1 r)) := by
  rw [found_inv]
  refine (shapeCast_apply _ shapeCasts_S50000_S50000x1 (ix2 r (0 : Fin 1)) (ix1 r) ?_).trans ?_
  · rw [Shape.rowMajor_val_one, Shape.rowMajor_val_two]
    show r.val = r.val * 1 + 0
    omega
  · rw [hostDivf_at, Cert.ReferenceIdeal.Read.val_main_v14_apply, Cert.ReferenceIdeal.Read.val_main_cst_3_apply,
      Ideal.ofBits_def, Ideal.ofBits_one_f32]

/-- The staged neighbour weights at `(k, q)` are the argument's at `(q, k)`. -/
theorem wnT_at (k q : Fin 128) : (V m c main_v19 : S128x128.Idx → EReal) (ix2 k q)
    = m ((c.tc : Thread nD τ).loc main_arg3) (ix2 q k) := by
  rw [found_wnT]
  exact transpose_ix2_apply _ _ k q

/-- The staged self weights at `(k, q)` are the argument's at `(q, k)`. -/
theorem wsT_at (k q : Fin 128) : (V m c main_v20 : S128x128.Idx → EReal) (ix2 k q)
    = m ((c.tc : Thread nD τ).loc main_arg4) (ix2 q k) := by
  rw [found_wsT]
  exact transpose_ix2_apply _ _ k q

/-- The staged bias row at column `q` is the bias at `q`. -/
theorem bias_at (q : Fin 128) : (V m c main_v21 : S1x128.Idx → EReal) (ix2 (0 : Fin 1) q)
    = m ((c.tc : Thread nD τ).loc main_arg5) (ix1 q) := by
  rw [found_bias]
  exact shapeCast_a_1a_apply _ _ 0 q

/-- Over the arrays its windows stage, the kernel's spelling of the layer is the reference's spelling over
    the argument arrays, the summed features and clamped degrees being the reference's own stages. -/
theorem staged_is_layer :
    fused (V m c main_arg0) (V m c main_v9) (V m c main_v18) (V m c main_v19) (V m c main_v20) (V m c main_v21)
      = layer (m ((c.tc : Thread nD τ).loc main_arg0))
          (Cert.ReferenceIdeal.Read.val_main_v9 (F := Ideal) (m ((c.tc : Thread nD τ).loc main_arg0))
            (m ((c.tc : Thread nD τ).loc main_arg1)) (m ((c.tc : Thread nD τ).loc main_arg2)))
          (Cert.ReferenceIdeal.Read.val_main_v15 (F := Ideal) (m ((c.tc : Thread nD τ).loc main_arg2)))
          (m ((c.tc : Thread nD τ).loc main_arg3)) (m ((c.tc : Thread nD τ).loc main_arg4))
          (m ((c.tc : Thread nD τ).loc main_arg5)) := by
  rw [V_main_arg0, found_summed]
  exact fused_eq_layer _ _ _ _ _ _ _ _ _ _ (clamped_ne_zero _) (inv_at m c) (wnT_at m c) (wsT_at m c) (bias_at m c)

end Cert.SageMean

end
-- ==== Proof.Blocks.lean ====
/-
  From the blocks each grid point writes back to the whole result array.

  The result has 50000 rows and the grid has 10 points; point `t` works on rows `5000 t … 5000 t + 4999`.
  Its features, summed-neighbour and reciprocal windows hold those same rows of their arrays; the two weight
  windows and the bias window hold their whole arrays at every point. So what point `t` writes back is rows
  `5000 t …` of ONE whole-array function — the kernel's spelling of the layer over the staged arrays —, the ten
  row blocks cover every row, and the array after the run is that function.
-/
import proofs.«166073_j56556129354467_2_alg».proof.Proof.Gen.KernelIdeal.Value
import proofs.«166073_j56556129354467_2_alg».proof.Proof.Payload
import proofs.«166073_j56556129354467_2_alg».proof.Proof.Spec
import Idealize.ShloMosaic.PureOps.Ideal

noncomputable section

namespace Cert.SageMean

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

theorem origin2 : (![0, 0] : Fin 2 → Nat) = fun _ => 0 := funext fun a => by fin_cases a <;> rfl

/-- Where each window's block sits at point `t`, decided over the ten points: the three row-blocked inputs
    move with the output's row block, every other block index is zero, and the output's row block is `t`. -/
theorem block_indices : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point `t`, read off any array of the result's shape: row `p` of the block is row `r` of the
    array, `r` being where the output's block puts its row `p`; the feature axis is not blocked. -/
theorem rows_block_read0 (A : S50000x128.Idx → EReal) (t : Fin cfg0.N) (p : Fin 5000) (k : Fin 128) (r : Fin 50000)
    (hr : r.val = win0_6.index t (0 : Fin 2) * 5000 + 1 * p.val) :
    ((cfg0.win 0).blk t).view.read (Elt Ideal) A (ix2 p k) = A (ix2 r k) := by
  obtain ⟨e0, e1, -⟩ := block_indices t
  rw [View.read_apply]
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Window 1's block at point `t`, read off any array of the result's shape: row `p` of the block is row `r` of the
    array, `r` being where the output's block puts its row `p`; the feature axis is not blocked. -/
theorem rows_block_read1 (A : S50000x128.Idx → EReal) (t : Fin cfg0.N) (p : Fin 5000) (k : Fin 128) (r : Fin 50000)
    (hr : r.val = win0_6.index t (0 : Fin 2) * 5000 + 1 * p.val) :
    ((cfg0.win 1).blk t).view.read (Elt Ideal) A (ix2 p k) = A (ix2 r k) := by
  obtain ⟨-, -, e0, e1, -⟩ := block_indices t
  rw [View.read_apply]
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The reciprocal column's block at point `t`, read off any column: row `p` of the block is row `r` of the column. -/
theorem col_block_read (A : S50000x1.Idx → EReal) (t : Fin cfg0.N) (p : Fin 5000) (r : Fin 50000)
    (hr : r.val = win0_6.index t (0 : Fin 2) * 5000 + 1 * p.val) :
    ((cfg0.win 2).blk t).view.read (Elt Ideal) A (ix2 p (0 : Fin 1)) = A (ix2 r (0 : Fin 1)) := by
  obtain ⟨-, -, -, -, e0, e1, -⟩ := block_indices t
  rw [View.read_apply]
  refine congrArg A (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- Window 3 holds its whole 128 × 128 array at every point. -/
theorem whole_block_read3 (A : S128x128.Idx → EReal) (t : Fin cfg0.N) (k q q' : Fin 128)
    (hq : q'.val = win0_6.index t (1 : Fin 2) * 128 + 1 * q.val) :
    ((cfg0.win 3).blk t).view.read (Elt Ideal) A (ix2 k q) = A (ix2 k q') := by
  obtain ⟨-, -, -, -, -, -, e0, e1, -, -, -, -, -, e61⟩ := block_indices t
  rw [View.read_apply]
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * q.val = q'.val; omega

/-- Window 4 holds its whole 128 × 128 array at every point. -/
theorem whole_block_read4 (A : S128x128.Idx → EReal) (t : Fin cfg0.N) (k q q' : Fin 128)
    (hq : q'.val = win0_6.index t (1 : Fin 2) * 128 + 1 * q.val) :
    ((cfg0.win 4).blk t).view.read (Elt Ideal) A (ix2 k q) = A (ix2 k q') := by
  obtain ⟨-, -, -, -, -, -, -, -, e0, e1, -, -, -, e61⟩ := block_indices t
  rw [View.read_apply]
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * q.val = q'.val; omega

/-- The bias window holds its whole one-row array at every point. -/
theorem bias_block_read (A : S1x128.Idx → EReal) (t : Fin cfg0.N) (q q' : Fin 128)
    (hq : q'.val = win0_6.index t (1 : Fin 2) * 128 + 1 * q.val) :
    ((cfg0.win 5).blk t).view.read (Elt Ideal) A (ix2 (0 : Fin 1) q) = A (ix2 (0 : Fin 1) q') := by
  obtain ⟨-, -, -, -, -, -, -, -, -, -, e0, e1, -, e61⟩ := block_indices t
  rw [View.read_apply]
  refine congrArg A (funext fun a => Fin.ext ?_)
  match a with
  | ⟨0, _⟩ => show win0_5.index t (0 : Fin 2) * 1 + 1 * 0 = 0; omega
  | ⟨1, _⟩ => show win0_5.index t (1 : Fin 2) * 128 + 1 * q.val = q'.val; omega

/-- Which buffer each input window's array is. -/
theorem arr0_eq (c : Dev nD) : (V m c (Pipeline.arrRef spec0 0) : S50000x128.Idx → EReal) = V m c main_arg0 := rfl
theorem arr1_eq (c : Dev nD) : (V m c (Pipeline.arrRef spec0 1) : S50000x128.Idx → EReal) = V m c main_v9 := rfl
theorem arr2_eq (c : Dev nD) : (V m c (Pipeline.arrRef spec0 2) : S50000x1.Idx → EReal) = V m c main_v18 := rfl
theorem arr3_eq (c : Dev nD) : (V m c (Pipeline.arrRef spec0 3) : S128x128.Idx → EReal) = V m c main_v19 := rfl
theorem arr4_eq (c : Dev nD) : (V m c (Pipeline.arrRef spec0 4) : S128x128.Idx → EReal) = V m c main_v20 := rfl
theorem arr5_eq (c : Dev nD) : (V m c (Pipeline.arrRef spec0 5) : S1x128.Idx → EReal) = V m c main_v21 := rfl

/-- The features block at point `t` is the output block's rows of the features. -/
theorem feat_block_at (c : Dev nD) (t : Fin cfg0.N) (p : Fin 5000) (k : Fin 128) (r : Fin 50000)
    (hr : r.val = win0_6.index t (0 : Fin 2) * 5000 + 1 * p.val) :
    (iblk m c 0 t : Vec Ideal S5000x128 .f32) (ix2 p k) = (V m c main_arg0 : S50000x128.Idx → EReal) (ix2 r k) :=
  (rows_block_read0 (V m c (Pipeline.arrRef spec0 0)) t p k r hr).trans (congrFun (arr0_eq m c) _)

/-- The summed-neighbour block, likewise. -/
theorem summed_block_at (c : Dev nD) (t : Fin cfg0.N) (p : Fin 5000) (k : Fin 128) (r : Fin 50000)
    (hr : r.val = win0_6.index t (0 : Fin 2) * 5000 + 1 * p.val) :
    (iblk m c 1 t : Vec Ideal S5000x128 .f32) (ix2 p k) = (V m c main_v9 : S50000x128.Idx → EReal) (ix2 r k) :=
  (rows_block_read1 (V m c (Pipeline.arrRef spec0 1)) t p k r hr).trans (congrFun (arr1_eq m c) _)

/-- The reciprocal-column block, likewise. -/
theorem inv_block_at (c : Dev nD) (t : Fin cfg0.N) (p : Fin 5000) (r : Fin 50000)
    (hr : r.val = win0_6.index t (0 : Fin 2) * 5000 + 1 * p.val) :
    (iblk m c 2 t : Vec Ideal S5000x1 .f32) (ix2 p (0 : Fin 1)) = (V m c main_v18 : S50000x1.Idx → EReal) (ix2 r (0 : Fin 1)) :=
  (col_block_read (V m c (Pipeline.arrRef spec0 2)) t p r hr).trans (congrFun (arr2_eq m c) _)

/-- The neighbour-weights block is the whole transposed matrix. -/
theorem wnT_block_at (c : Dev nD) (t : Fin cfg0.N) (k q q' : Fin 128)
    (hq : q'.val = win0_6.index t (1 : Fin 2) * 128 + 1 * q.val) :
    (iblk m c 3 t : Vec Ideal S128x128 .f32) (ix2 k q) = (V m c main_v19 : S128x128.Idx → EReal) (ix2 k q') :=
  (whole_block_read3 (V m c (Pipeline.arrRef spec0 3)) t k q q' hq).trans (congrFun (arr3_eq m c) _)

/-- The self-weights block is the whole transposed matrix. -/
theorem wsT_block_at (c : Dev nD) (t : Fin cfg0.N) (k q q' : Fin 128)
    (hq : q'.val = win0_6.index t (1 : Fin 2) * 128 + 1 * q.val) :
    (iblk m c 4 t : Vec Ideal S128x128 .f32) (ix2 k q) = (V m c main_v20 : S128x128.Idx → EReal) (ix2 k q') :=
  (whole_block_read4 (V m c (Pipeline.arrRef spec0 4)) t k q q' hq).trans (congrFun (arr4_eq m c) _)

/-- The bias block is the whole bias row. -/
theorem bias_block_at (c : Dev nD) (t : Fin cfg0.N) (q q' : Fin 128)
    (hq : q'.val = win0_6.index t (1 : Fin 2) * 128 + 1 * q.val) :
    (iblk m c 5 t : Vec Ideal S1x128 .f32) (ix2 (0 : Fin 1) q) = (V m c main_v21 : S1x128.Idx → EReal) (ix2 (0 : Fin 1) q') :=
  (bias_block_read (V m c (Pipeline.arrRef spec0 5)) t q q' hq).trans (congrFun (arr5_eq m c) _)

/-- The kernel's spelling of the layer over the arrays the region finds. -/
abbrev stagedLayer (c : Dev nD) : S50000x128.Idx → EReal :=
  fused (V m c main_arg0) (V m c main_v9) (V m c main_v18) (V m c main_v19) (V m c main_v20) (V m c main_v21)

/-- What point `t` writes back is its row block of `stagedLayer`. -/
theorem flushed_eq (c : Dev nD) (t : Fin cfg0.N) :
    (dats m 0 c).flushed 6 t = ((cfg0.win 6).blk t).view.read (Elt Ideal) (stagedLayer m c) := by
  rw [Cert.KernelIdeal.Value.flushed6]
  unfold out0_6
  rw [View.canon_unit_zero origin2]
  simp only [View.ld_unit_zero (S := S5000x128) origin2, View.ld_unit_zero (S := S5000x1) origin2,
    View.ld_unit_zero (S := S128x128) origin2, View.ld_unit_zero (S := S1x128) origin2]
  funext j
  obtain ⟨p, q, rfl⟩ : ∃ (p : Fin 5000) (q : Fin 128), j = ix2 p q := ⟨j 0, j 1, eq_ix2 j⟩
  rw [View.read_apply]
  -- element (p, q) of the output's block sits at row r, column q' of the array
  obtain ⟨r, q', he, hr, hq⟩ : ∃ (r : Fin 50000) (q' : Fin 128),
      ((cfg0.win 6).blk t).view.emb (ix2 p q) = ix2 r q'
      ∧ r.val = win0_6.index t (0 : Fin 2) * 5000 + 1 * p.val ∧ q'.val = win0_6.index t (1 : Fin 2) * 128 + 1 * q.val :=
    ⟨_, _, eq_ix2 _, rfl, rfl⟩
  rw [he]
  refine (payload_at (iblk m c 0 t) (iblk m c 1 t) (iblk m c 2 t) (iblk m c 3 t) (iblk m c 4 t) (iblk m c 5 t) p q).trans ?_
  unfold stagedLayer
  rw [fused_at]
  refine congrArg₂ (· + ·) (congrArg₂ (· + ·) (Finset.sum_congr rfl fun k _ => ?_) ?_)
    (Finset.sum_congr rfl fun k _ => ?_)
  · rw [feat_block_at m c t p k r hr, wsT_block_at m c t k q q' hq]
  · exact bias_block_at m c t q q' hq
  · rw [summed_block_at m c t p k r hr, inv_block_at m c t p r hr, wnT_block_at m c t k q q' hq]

/-- An index is in point `t`'s output block iff each coordinate is in the block's range on its axis. -/
theorem mem_block (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v22).slice (win0_6.rect t)).set ↔ _
  rw [View.set_slice_whole, Rect.mem_set_unit]
  exact Iff.rfl

/-- Every row is in some point's block: row `i` in that of point `i / 5000`. -/
theorem rows_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hlt : (i 0).val / 5000 < grid0.N := by rw [N_0]; omega
  obtain ⟨t, ht⟩ : ∃ t : Fin cfg0.N, t.val = (i 0).val / 5000 := ⟨⟨_, hlt⟩, rfl⟩
  obtain ⟨-, -, -, -, -, -, -, -, -, -, -, -, e60, e61⟩ := block_indices t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- The result array after the run is `stagedLayer`. -/
theorem result_array (c : Dev nD) : (dats m 0 c).arrAt 6 cfg0.N = stagedLayer m c :=
  (dats m 0 c).arrAt_eq_of_cover 6 (stagedLayer m c) (fun t _ => flushed_eq m c t) rows_cover

/-- The kernel's run: the result array ends at `stagedLayer`, the arguments unchanged. -/
theorem kernel_run : θ_run defs (onTc (τ := τ) (main (F := Ideal))) ⟨m, fun _ => 0, ρ⟩ fun r => ∀ c : Dev nD,
      r.2.mem ((c : Thread nD τ).loc main_v22) = stagedLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_array m c), (h c).2⟩)
    (Cert.KernelIdeal.Value.run_blocks m ρ)

end Cert.SageMean

end
-- ==== Proof.lean ====
/-
  A mean-aggregating graph layer, fused, against its plain reference — equal on the extended reals.

  Both programs gather each edge's source features, add them into the edge's destination row, count the
  edges into each row, clamp the count below by one, and output, for node `r` and column `q`,

      (∑ k, feat r k · W_self q k + b q) + ∑ k, mean r k · W_neigh q k.

  The reference forms `mean r k = summed r k / max (deg r) 1`. The kernel is handed the reciprocal
  `1 / max (deg r) 1` as a column and forms `summed r k · (1 / max (deg r) 1)` inside its body, ten blocks of
  5000 rows at a time, each matrix product into a zero accumulator. On the extended reals a quotient by a
  nonzero divisor is the product with the divisor's reciprocal, whatever the dividend (Spec.lean), and a
  degree clamped below by one is not zero; the format changes inside the kernel are the identity there. So the
  two results are one function of the arguments (Spec.lean's `layer`): the reference by reading its
  operations in order (RefIsSpec.lean), the kernel by its body's stored value at an index (Payload.lean),
  the arrays the host prepared for it (HostSide.lean) and the ten row blocks covering the result (Blocks.lean).
  The gather and the two scatter-adds are the same operations of the same arguments in both programs and are
  carried as one term, never opened. No entry needs to be finite for any of this.

  The three runs — each program terminates without a fault and leaves its arguments unchanged — are the
  generated frame runs; the idealization rewrote no operation, so there is nothing to preserve beyond that.
-/
import proofs.«166073_j56556129354467_2_alg».proof.Defs
import proofs.«166073_j56556129354467_2_alg».proof.Proof.Gen.Kernel
import proofs.«166073_j56556129354467_2_alg».proof.Proof.Gen.Kernel.Skeleton
import proofs.«166073_j56556129354467_2_alg».proof.Proof.Gen.Kernel.Launch
import proofs.«166073_j56556129354467_2_alg».proof.Proof.Gen.Kernel.Points
import proofs.«166073_j56556129354467_2_alg».proof.Proof.Gen.Kernel.Frame
import proofs.«166073_j56556129354467_2_alg».proof.Proof.Gen.KernelIdeal
import proofs.«166073_j56556129354467_2_alg».proof.Proof.Gen.KernelIdeal.Skeleton
import proofs.«166073_j56556129354467_2_alg».proof.Proof.Gen.KernelIdeal.Launch
import proofs.«166073_j56556129354467_2_alg».proof.Proof.Gen.KernelIdeal.Points
import proofs.«166073_j56556129354467_2_alg».proof.Proof.Gen.KernelIdeal.Frame
import proofs.«166073_j56556129354467_2_alg».proof.Proof.Gen.ReferenceIdeal
import proofs.«166073_j56556129354467_2_alg».proof.Proof.Gen.Pre_finite_inputs
import proofs.«166073_j56556129354467_2_alg».proof.Proof.Gen.KernelIdeal.Value
import proofs.«166073_j56556129354467_2_alg».proof.Proof.Gen.ReferenceIdeal.Run
import proofs.«166073_j56556129354467_2_alg».proof.Proof.Gen.ReferenceIdeal.Read
import proofs.«166073_j56556129354467_2_alg».proof.Proof.Spec
import proofs.«166073_j56556129354467_2_alg».proof.Proof.RefIsSpec
import proofs.«166073_j56556129354467_2_alg».proof.Proof.Payload
import proofs.«166073_j56556129354467_2_alg».proof.Proof.HostSide
import proofs.«166073_j56556129354467_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's are the same layer. -/
theorem algebraic : Cert.algebraic_KernelIdeal_ReferenceIdeal := by
  intro m ρ m' ρ' _ hagree
  refine ⟨fun c => Cert.SageMean.stagedLayer m c, Cert.SageMean.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.SageMean.reference_is_layer,
    (hagree c).1, (hagree c).2.1, (hagree c).2.2.1, (hagree c).2.2.2.1, (hagree c).2.2.2.2.1, (hagree c).2.2.2.2.2]
  exact (Cert.SageMean.staged_is_layer m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
